-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x64 .f32) (main_arg2 : FVec F S192x128 .f32) (main_arg3 : FVec F S128 .f32) (main_arg4 : FVec F S128x64 .f32) (main_arg5 : FVec F S64 .f32) (main_arg6 : FVec F S128x128 .f32) (main_arg7 : FVec F S128 .f32) (main_arg8 : FVec F S128x64 .f32) (main_arg9 : FVec F S64 .f32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S8000x64 : Shape := ⟨2, ![8000, 64]⟩
abbrev S8000x128 : Shape := ⟨2, ![8000, 128]⟩
abbrev S1x128 : Shape := ⟨2, ![1, 128]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 42
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S50000x64, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .bf16⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S64x128, .f32⟩
  | .hbm, ⟨40, _⟩ => ⟨S64x128, .f32⟩
  | .hbm, ⟨41, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .bf16⟩
  | .local _ .vmem, ⟨3, _⟩ => ⟨S8000x64, .bf16⟩
  | .local _ .vmem, ⟨4, _⟩ => ⟨S8000x64, .bf16⟩
  | .local _ .vmem, ⟨5, _⟩ => ⟨S8000x64, .bf16⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x128, .f32⟩
  | .local _ .vmem, ⟨19, _⟩ => ⟨S64x128, .f32⟩
  | .local _ .vmem, ⟨20, _⟩ => ⟨S128, .f32⟩
  | .local _ .vmem, ⟨21, _⟩ => ⟨S128x64, .f32⟩
  | .local _ .vmem, ⟨22, _⟩ => ⟨S64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S192x128_S64x128_0_0 : S192x128.Slices ![0, 0] S64x128
  slices_S192x128_S64x128_64_0 : S192x128.Slices ![64, 0] S64x128
  slices_S192x128_S64x128_128_0 : S192x128.Slices ![128, 0] S64x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .bf16 = 32 ∨ (Rect.block (s := S800000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .bf16 = 32 ∨ (Rect.block (s := S800000x64) S8000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x192, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The kernel program's run with its final memory read: from any launch memory with zero counters every weakly fair
  execution of the program terminates without a fault, and every buffer that is not scoped to a region ends holding
  the contents obtained by folding the program's segments over the launch memory — the host operations before the edge
  region, the edge region's write-backs, the host operations between the regions, the node region's write-backs. The
  two results and the twelve arguments are such buffers; the arguments' contents fold back to the launch memory.
-/
import proofs.«142563_j40140764348810_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the fold's contents `W4`. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the two results and the twelve arguments named: each result at the fold's contents, each
    argument as launched. -/
theorem run_results : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v18 (by decide)),
       h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_mem m ρ)

end Cert.KernelIdeal.RunValue

end
-- ==== Proof.Spec.lean ====
/-
  The two dense stages of the message-passing step, as functions on the extended reals.

  Each stage is a two-layer perceptron with 128 hidden units and 64 outputs applied to every row independently. Its
  first layer is written block by block: the input row is a concatenation of pieces of length 64 (three for an edge: the
  edge's own features, the sender node's, the receiver node's; two for a node: the aggregated messages, the node's
  own features), and the first weight matrix is correspondingly cut into row blocks of 64, so the hidden pre-activation
  is a sum of one product-sum per piece, plus the bias. The rectifier is the maximum with the value of the zero word, and
  the second layer is one product-sum over the 128 hidden units plus its bias.

  The number of rows `R` is a parameter, so that the same function describes one block of rows and the whole array:
  an entry depends on its own row of each row-indexed argument only (`edgeEntry_congr`, `nodeEntry_congr`).
-/
import Idealize.ShloMosaic.PureOps.Ideal
import Idealize.ShloMosaic.Lib.ValueIdx

noncomputable section

open scoped BigOperators

namespace Cert.GraphNet

open Idealize.ShloMosaic Idealize.ShloMosaic.ValueIdx

/-- A real-valued array of a given shape, at exact arithmetic. -/
abbrev Arr (s : Shape) : Type := s.Idx → EReal

/-- The rectifier and the second layer: `∑ k, max (h k) 0 * W2 (k, q) + b2 q`, the zero being the value of the zero word. -/
def outLayer (h : Fin 128 → EReal) (W2 : Arr ⟨2, ![128, 64]⟩) (b2 : Arr ⟨1, ![64]⟩) (q : Fin 64) : EReal :=
  (∑ k : Fin 128, max (h k) (Ideal.ofBits .f32 0x00000000#32) * W2 (ix2 k q)) + b2 (ix1 q)

/-- An edge's hidden pre-activation at unit `k`: one product-sum per piece of the input row, then the bias. -/
def edgeHidden (ef gs gr : Fin 64 → EReal) (We Ws Wr : Arr ⟨2, ![64, 128]⟩) (b1 : Arr ⟨1, ![128]⟩) (k : Fin 128) : EReal :=
  ((∑ a : Fin 64, ef a * We (ix2 a k) + ∑ a : Fin 64, gs a * Ws (ix2 a k)) + ∑ a : Fin 64, gr a * Wr (ix2 a k)) + b1 (ix1 k)

/-- A node's hidden pre-activation at unit `k`. -/
def nodeHidden (agg nf : Fin 64 → EReal) (Wa Wn : Arr ⟨2, ![64, 128]⟩) (b1 : Arr ⟨1, ![128]⟩) (k : Fin 128) : EReal :=
  (∑ a : Fin 64, agg a * Wa (ix2 a k) + ∑ a : Fin 64, nf a * Wn (ix2 a k)) + b1 (ix1 k)

/-- The edge stage's entry at row `p`, column `q`. -/
def edgeEntry {R : Nat} (ef gs gr : Arr ⟨2, ![R, 64]⟩) (We Ws Wr : Arr ⟨2, ![64, 128]⟩) (b1 : Arr ⟨1, ![128]⟩)
    (W2 : Arr ⟨2, ![128, 64]⟩) (b2 : Arr ⟨1, ![64]⟩) (p : Fin R) (q : Fin 64) : EReal :=
  outLayer (edgeHidden (fun a => ef (ix2 p a)) (fun a => gs (ix2 p a)) (fun a => gr (ix2 p a)) We Ws Wr b1) W2 b2 q

/-- The node stage's entry at row `p`, column `q`. -/
def nodeEntry {R : Nat} (agg nf : Arr ⟨2, ![R, 64]⟩) (Wa Wn : Arr ⟨2, ![64, 128]⟩) (b1 : Arr ⟨1, ![128]⟩)
    (W2 : Arr ⟨2, ![128, 64]⟩) (b2 : Arr ⟨1, ![64]⟩) (p : Fin R) (q : Fin 64) : EReal :=
  outLayer (nodeHidden (fun a => agg (ix2 p a)) (fun a => nf (ix2 p a)) Wa Wn b1) W2 b2 q

/-- The edge stage on an array of `R` rows. -/
def edgeOut {R : Nat} (ef gs gr : Arr ⟨2, ![R, 64]⟩) (We Ws Wr : Arr ⟨2, ![64, 128]⟩) (b1 : Arr ⟨1, ![128]⟩)
    (W2 : Arr ⟨2, ![128, 64]⟩) (b2 : Arr ⟨1, ![64]⟩) : Arr ⟨2, ![R, 64]⟩ :=
  fun j => edgeEntry ef gs gr We Ws Wr b1 W2 b2 (j 0) (j 1)

/-- The node stage on an array of `R` rows. -/
def nodeOut {R : Nat} (agg nf : Arr ⟨2, ![R, 64]⟩) (Wa Wn : Arr ⟨2, ![64, 128]⟩) (b1 : Arr ⟨1, ![128]⟩)
    (W2 : Arr ⟨2, ![128, 64]⟩) (b2 : Arr ⟨1, ![64]⟩) : Arr ⟨2, ![R, 64]⟩ :=
  fun j => nodeEntry agg nf Wa Wn b1 W2 b2 (j 0) (j 1)

theorem edgeOut_ix2 {R : Nat} (ef gs gr : Arr ⟨2, ![R, 64]⟩) (We Ws Wr : Arr ⟨2, ![64, 128]⟩) (b1 : Arr ⟨1, ![128]⟩)
    (W2 : Arr ⟨2, ![128, 64]⟩) (b2 : Arr ⟨1, ![64]⟩) (p : Fin R) (q : Fin 64) :
    edgeOut ef gs gr We Ws Wr b1 W2 b2 (ix2 p q) = edgeEntry ef gs gr We Ws Wr b1 W2 b2 p q := rfl

theorem nodeOut_ix2 {R : Nat} (agg nf : Arr ⟨2, ![R, 64]⟩) (Wa Wn : Arr ⟨2, ![64, 128]⟩) (b1 : Arr ⟨1, ![128]⟩)
    (W2 : Arr ⟨2, ![128, 64]⟩) (b2 : Arr ⟨1, ![64]⟩) (p : Fin R) (q : Fin 64) :
    nodeOut agg nf Wa Wn b1 W2 b2 (ix2 p q) = nodeEntry agg nf Wa Wn b1 W2 b2 p q := rfl

/-- An edge entry depends on row `p` of the row-indexed arguments only: two triples of arrays, of any numbers of rows,
    that agree on the rows `p` and `p'` give the same entry. -/
theorem edgeEntry_congr {R R' : Nat} (ef gs gr : Arr ⟨2, ![R, 64]⟩) (ef' gs' gr' : Arr ⟨2, ![R', 64]⟩)
    (We Ws Wr : Arr ⟨2, ![64, 128]⟩) (b1 : Arr ⟨1, ![128]⟩) (W2 : Arr ⟨2, ![128, 64]⟩) (b2 : Arr ⟨1, ![64]⟩)
    (p : Fin R) (p' : Fin R') (q : Fin 64)
    (h0 : ∀ a : Fin 64, ef (ix2 p a) = ef' (ix2 p' a)) (h1 : ∀ a : Fin 64, gs (ix2 p a) = gs' (ix2 p' a))
    (h2 : ∀ a : Fin 64, gr (ix2 p a) = gr' (ix2 p' a)) :
    edgeEntry ef gs gr We Ws Wr b1 W2 b2 p q = edgeEntry ef' gs' gr' We Ws Wr b1 W2 b2 p' q := by
  unfold edgeEntry
  rw [show (fun a => ef (ix2 p a)) = fun a => ef' (ix2 p' a) from funext h0,
    show (fun a => gs (ix2 p a)) = fun a => gs' (ix2 p' a) from funext h1,
    show (fun a => gr (ix2 p a)) = fun a => gr' (ix2 p' a) from funext h2]

/-- A node entry depends on row `p` of the row-indexed arguments only. -/
theorem nodeEntry_congr {R R' : Nat} (agg nf : Arr ⟨2, ![R, 64]⟩) (agg' nf' : Arr ⟨2, ![R', 64]⟩)
    (Wa Wn : Arr ⟨2, ![64, 128]⟩) (b1 : Arr ⟨1, ![128]⟩) (W2 : Arr ⟨2, ![128, 64]⟩) (b2 : Arr ⟨1, ![64]⟩)
    (p : Fin R) (p' : Fin R') (q : Fin 64)
    (h0 : ∀ a : Fin 64, agg (ix2 p a) = agg' (ix2 p' a)) (h1 : ∀ a : Fin 64, nf (ix2 p a) = nf' (ix2 p' a)) :
    nodeEntry agg nf Wa Wn b1 W2 b2 p q = nodeEntry agg' nf' Wa Wn b1 W2 b2 p' q := by
  unfold nodeEntry
  rw [show (fun a => agg (ix2 p a)) = fun a => agg' (ix2 p' a) from funext h0,
    show (fun a => nf (ix2 p a)) = fun a => nf' (ix2 p' a) from funext h1]

end Cert.GraphNet

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Payload.lean ====
/-
  What each kernel body computes on one block of rows, at exact arithmetic: the body of the edge kernel is the edge
  stage of `Spec` on its block of 8000 rows, and the body of the node kernel is the node stage on its block of 5000
  rows. The format changes are the identity on the extended reals, every matrix product is accumulated into the zero
  matrix and so is a plain product-sum over the contracted coordinate, the bias vector is laid out as one row and
  repeated down the rows, and the rectifier is the maximum with the value of the zero word.
-/
import proofs.«142563_j40140764348810_2_alg».proof.Proof.Gen.KernelIdeal.Skeleton
import proofs.«142563_j40140764348810_2_alg».proof.Proof.Spec
import proofs.«142563_j40140764348810_2_alg».proof.Proof.LibPlainDot
import Idealize.ShloMosaic.Lib.ValueLayout
import Idealize.ShloMosaic.Lib.Pipeline.Value

noncomputable section

open scoped BigOperators

namespace Cert.KernelIdeal.Body

open Cert.KernelIdeal Idealize.ShloMosaic Idealize.ShloMosaic.ValueIdx Cert.GraphNet

/-- The product with the dimension numbers `dot_S8000x64_S64x128_S8000x128_1_0_0_1_n_n`, into the zero matrix, at `(p, c)`. -/
theorem dot_edge_in {φ₁ φ₂ : FTy} (l : FVec Ideal S8000x64 φ₁) (r : FVec Ideal S64x128 φ₂) (p : Fin 8000) (c : Fin 128) :
    matmul dot_S8000x64_S64x128_S8000x128_1_0_0_1_n_n none l r (constant S8000x128 .f32 0x00000000#32) (ix2 p c)
      = ∑ a : Fin 64, l (ix2 p a) * r (ix2 a c) :=
  Cert.LibPlainDot.matmul_zero_plain dot_S8000x64_S64x128_S8000x128_1_0_0_1_n_n rfl rfl
    (fun i q => by
      unfold DotDims.lhsIdx
      rw [dif_neg (show ¬(0 : Fin S8000x64.rank) ∈ dot_S8000x64_S64x128_S8000x128_1_0_0_1_n_n.lhsBatch by decide),
        dif_pos (show (0 : Fin S8000x64.rank) ∈ dot_S8000x64_S64x128_S8000x128_1_0_0_1_n_n.lhsNonContracting by decide)]
      rfl)
    (fun i q => dot_S8000x64_S64x128_S8000x128_1_0_0_1_n_n.lhsIdx_val_of_single rfl i q)
    (fun i q => dot_S8000x64_S64x128_S8000x128_1_0_0_1_n_n.rhsIdx_val_of_single rfl i q)
    (fun i q => by
      unfold DotDims.rhsIdx
      rw [dif_neg (show ¬(1 : Fin S64x128.rank) ∈ dot_S8000x64_S64x128_S8000x128_1_0_0_1_n_n.rhsBatch by decide),
        dif_pos (show (1 : Fin S64x128.rank) ∈ dot_S8000x64_S64x128_S8000x128_1_0_0_1_n_n.rhsNonContracting by decide)]
      rfl)
    none l r p c

/-- The product with the dimension numbers `dot_S8000x128_S128x64_S8000x64_1_0_0_1_n_n`, into the zero matrix, at `(p, c)`. -/
theorem dot_edge_out {φ₁ φ₂ : FTy} (l : FVec Ideal S8000x128 φ₁) (r : FVec Ideal S128x64 φ₂) (p : Fin 8000) (c : Fin 64) :
    matmul dot_S8000x128_S128x64_S8000x64_1_0_0_1_n_n none l r (constant S8000x64 .f32 0x00000000#32) (ix2 p c)
      = ∑ a : Fin 128, l (ix2 p a) * r (ix2 a c) :=
  Cert.LibPlainDot.matmul_zero_plain dot_S8000x128_S128x64_S8000x64_1_0_0_1_n_n rfl rfl
    (fun i q => by
      unfold DotDims.lhsIdx
      rw [dif_neg (show ¬(0 : Fin S8000x128.rank) ∈ dot_S8000x128_S128x64_S8000x64_1_0_0_1_n_n.lhsBatch by decide),
        dif_pos (show (0 : Fin S8000x128.rank) ∈ dot_S8000x128_S128x64_S8000x64_1_0_0_1_n_n.lhsNonContracting by decide)]
      rfl)
    (fun i q => dot_S8000x128_S128x64_S8000x64_1_0_0_1_n_n.lhsIdx_val_of_single rfl i q)
    (fun i q => dot_S8000x128_S128x64_S8000x64_1_0_0_1_n_n.rhsIdx_val_of_single rfl i q)
    (fun i q => by
      unfold DotDims.rhsIdx
      rw [dif_neg (show ¬(1 : Fin S128x64.rank) ∈ dot_S8000x128_S128x64_S8000x64_1_0_0_1_n_n.rhsBatch by decide),
        dif_pos (show (1 : Fin S128x64.rank) ∈ dot_S8000x128_S128x64_S8000x64_1_0_0_1_n_n.rhsNonContracting by decide)]
      rfl)
    none l r p c

/-- The product with the dimension numbers `dot_S5000x64_S64x128_S5000x128_1_0_0_1_n_n`, into the zero matrix, at `(p, c)`. -/
theorem dot_node_in {φ₁ φ₂ : FTy} (l : FVec Ideal S5000x64 φ₁) (r : FVec Ideal S64x128 φ₂) (p : Fin 5000) (c : Fin 128) :
    matmul dot_S5000x64_S64x128_S5000x128_1_0_0_1_n_n none l r (constant S5000x128 .f32 0x00000000#32) (ix2 p c)
      = ∑ a : Fin 64, l (ix2 p a) * r (ix2 a c) :=
  Cert.LibPlainDot.matmul_zero_plain dot_S5000x64_S64x128_S5000x128_1_0_0_1_n_n rfl rfl
    (fun i q => by
      unfold DotDims.lhsIdx
      rw [dif_neg (show ¬(0 : Fin S5000x64.rank) ∈ dot_S5000x64_S64x128_S5000x128_1_0_0_1_n_n.lhsBatch by decide),
        dif_pos (show (0 : Fin S5000x64.rank) ∈ dot_S5000x64_S64x128_S5000x128_1_0_0_1_n_n.lhsNonContracting by decide)]
      rfl)
    (fun i q => dot_S5000x64_S64x128_S5000x128_1_0_0_1_n_n.lhsIdx_val_of_single rfl i q)
    (fun i q => dot_S5000x64_S64x128_S5000x128_1_0_0_1_n_n.rhsIdx_val_of_single rfl i q)
    (fun i q => by
      unfold DotDims.rhsIdx
      rw [dif_neg (show ¬(1 : Fin S64x128.rank) ∈ dot_S5000x64_S64x128_S5000x128_1_0_0_1_n_n.rhsBatch by decide),
        dif_pos (show (1 : Fin S64x128.rank) ∈ dot_S5000x64_S64x128_S5000x128_1_0_0_1_n_n.rhsNonContracting by decide)]
      rfl)
    none l r p c

/-- The product with the dimension numbers `dot_S5000x128_S128x64_S5000x64_1_0_0_1_n_n`, into the zero matrix, at `(p, c)`. -/
theorem dot_node_out {φ₁ φ₂ : FTy} (l : FVec Ideal S5000x128 φ₁) (r : FVec Ideal S128x64 φ₂) (p : Fin 5000) (c : Fin 64) :
    matmul dot_S5000x128_S128x64_S5000x64_1_0_0_1_n_n none l r (constant S5000x64 .f32 0x00000000#32) (ix2 p c)
      = ∑ a : Fin 128, l (ix2 p a) * r (ix2 a c) :=
  Cert.LibPlainDot.matmul_zero_plain dot_S5000x128_S128x64_S5000x64_1_0_0_1_n_n rfl rfl
    (fun i q => by
      unfold DotDims.lhsIdx
      rw [dif_neg (show ¬(0 : Fin S5000x128.rank) ∈ dot_S5000x128_S128x64_S5000x64_1_0_0_1_n_n.lhsBatch by decide),
        dif_pos (show (0 : Fin S5000x128.rank) ∈ dot_S5000x128_S128x64_S5000x64_1_0_0_1_n_n.lhsNonContracting by decide)]
      rfl)
    (fun i q => dot_S5000x128_S128x64_S5000x64_1_0_0_1_n_n.lhsIdx_val_of_single rfl i q)
    (fun i q => dot_S5000x128_S128x64_S5000x64_1_0_0_1_n_n.rhsIdx_val_of_single rfl i q)
    (fun i q => by
      unfold DotDims.rhsIdx
      rw [dif_neg (show ¬(1 : Fin S128x64.rank) ∈ dot_S5000x128_S128x64_S5000x64_1_0_0_1_n_n.rhsBatch by decide),
        dif_pos (show (1 : Fin S128x64.rank) ∈ dot_S5000x128_S128x64_S5000x64_1_0_0_1_n_n.rhsNonContracting by decide)]
      rfl)
    none l r p c

/-- The edge kernel's stored value, as a function of the nine blocks it loads, is the edge stage on 8000 rows. -/
theorem edge_body (x0 : FVec Ideal S8000x64 .f32) (x1 x2 : FVec Ideal S8000x64 .bf16) (x3 x4 x5 : FVec Ideal S64x128 .f32)
    (x6 : FVec Ideal S128 .f32) (x7 : FVec Ideal S128x64 .f32) (x8 : FVec Ideal S64 .f32) :
    Gen.k0_pay1 (F := Ideal) x0 x1 x2 x3 x4 x5 x6 x7 x8 = edgeOut (R := 8000) x0 x1 x2 x3 x4 x5 x6 x7 x8 := by
  funext j
  obtain ⟨p, q, rfl⟩ : ∃ (p : Fin 8000) (q : Fin 64), j = ix2 p q := ⟨j 0, j 1, eq_ix2 j⟩
  simp only [Gen.k0_pay1, edgeOut_ix2, edgeEntry, outLayer, edgeHidden, addf_apply, maximumf_apply, truncf_apply,
    broadcast_apply, shapeCast_self, dot_edge_in, dot_edge_out, broadcastTo_1b_ab_apply, shapeCast_a_1a_apply]
  rfl

/-- The node kernel's stored value, as a function of the seven blocks it loads, is the node stage on 5000 rows. -/
theorem node_body (x0 x1 : FVec Ideal S5000x64 .f32) (x2 x3 : FVec Ideal S64x128 .f32)
    (x4 : FVec Ideal S128 .f32) (x5 : FVec Ideal S128x64 .f32) (x6 : FVec Ideal S64 .f32) :
    Gen.k1_pay1 (F := Ideal) x0 x1 x2 x3 x4 x5 x6 = nodeOut (R := 5000) x0 x1 x2 x3 x4 x5 x6 := by
  funext j
  obtain ⟨p, q, rfl⟩ : ∃ (p : Fin 5000) (q : Fin 64), j = ix2 p q := ⟨j 0, j 1, eq_ix2 j⟩
  simp only [Gen.k1_pay1, nodeOut_ix2, nodeEntry, outLayer, nodeHidden, addf_apply, maximumf_apply, truncf_apply,
    broadcast_apply, shapeCast_self, dot_node_in, dot_node_out, broadcastTo_1b_ab_apply, shapeCast_a_1a_apply]
  rfl

end Cert.KernelIdeal.Body

end
-- ==== Proof.EdgeBlocks.lean ====
/-
  The edge kernel's output array after its pipeline has run, for ANY contents `V` of the buffers when the region is
  entered: it is the edge stage of `Spec` applied to the nine operand arrays as the region finds them.

  The grid has 100 points. At point `t` the three row-indexed operands and the output are cut into blocks of 8000 rows
  and the point sees block `t` (rows `8000 t … 8000 t + 7999`), while the six weight and bias operands are seen whole at
  every point. An entry of the stage depends on its own row of the row-indexed operands only, so the stage on block `t`
  is block `t` of the stage on the whole arrays; the 100 output blocks tile the 800000 rows (row `r` lies in block
  `r / 8000`), so the array ends as the stage on the whole arrays.
-/
import proofs.«142563_j40140764348810_2_alg».proof.Proof.Gen.KernelIdeal.Frame
import proofs.«142563_j40140764348810_2_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GraphNet
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The stage at a row `y 0` of blocks equals the stage at a row `i 0` of arrays whenever the two rows hold the same
    entries in each row-indexed operand and the columns agree. -/
theorem edgeOut_rows {R R' : Nat} (b0 b1 b2 : Arr ⟨2, ![R, 64]⟩) (A0 A1 A2 : Arr ⟨2, ![R', 64]⟩)
    (We Ws Wr : Arr ⟨2, ![64, 128]⟩) (c1 : Arr ⟨1, ![128]⟩) (W2 : Arr ⟨2, ![128, 64]⟩) (c2 : Arr ⟨1, ![64]⟩)
    (y : (⟨2, ![R, 64]⟩ : Shape).Idx) (i : (⟨2, ![R', 64]⟩ : Shape).Idx) (hq : i 1 = y 1)
    (h0 : ∀ a : Fin 64, b0 (ix2 (y 0) a) = A0 (ix2 (i 0) a)) (h1 : ∀ a : Fin 64, b1 (ix2 (y 0) a) = A1 (ix2 (i 0) a))
    (h2 : ∀ a : Fin 64, b2 (ix2 (y 0) a) = A2 (ix2 (i 0) a)) :
    edgeOut b0 b1 b2 We Ws Wr c1 W2 c2 y = edgeOut A0 A1 A2 We Ws Wr c1 W2 c2 i := by
  unfold edgeOut
  rw [hq]
  exact edgeEntry_congr b0 b1 b2 A0 A1 A2 We Ws Wr c1 W2 c2 (y 0) (i 0) (y 1) h0 h1 h2

/-- The printed index maps over the 100 grid points: the row-indexed windows and the output sit at block row `t`,
    column block 0; the weight and bias windows at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- A row-indexed operand's block at point `t`, at `(y 0, a)`, is the array at the same place of the output's block. -/
theorem rows0 (c : Dev nD) (t : Fin cfg0.N) (y : S8000x64.Idx) (a : Fin 64) :
    iblk0 V c 0 t (ix2 (y 0) a) = V c main_arg1 (ix2 ((((cfg0.win 9).blk t).view.emb y) 0) a)
    ∧ iblk0 V c 1 t (ix2 (y 0) a) = V c main_v7 (ix2 ((((cfg0.win 9).blk t).view.emb y) 0) a)
    ∧ iblk0 V c 2 t (ix2 (y 0) a) = V c main_v14 (ix2 ((((cfg0.win 9).blk t).view.emb y) 0) a) := by
  obtain ⟨e00, e01, e10, e11, e20, e21, e90, e91, -⟩ := idx0 t
  have hy : (y 0).val < 8000 := (y 0).isLt
  have ha : a.val < 64 := a.isLt
  refine ⟨?_, ?_, ?_⟩
  · show V c main_arg1 (((cfg0.win 0).blk t).view.emb (ix2 (y 0) a)) = _
    refine congrArg (V c main_arg1) (funext fun d => Fin.ext ?_)
    match d with
    | ⟨0, _⟩ => show win0_0.index t (0 : Fin 2) * 8000 + 1 * (y 0).val = win0_9.index t (0 : Fin 2) * 8000 + 1 * (y 0).val; omega
    | ⟨1, _⟩ => show win0_0.index t (1 : Fin 2) * 64 + 1 * a.val = a.val; omega
  · show V c main_v7 (((cfg0.win 1).blk t).view.emb (ix2 (y 0) a)) = _
    refine congrArg (V c main_v7) (funext fun d => Fin.ext ?_)
    match d with
    | ⟨0, _⟩ => show win0_1.index t (0 : Fin 2) * 8000 + 1 * (y 0).val = win0_9.index t (0 : Fin 2) * 8000 + 1 * (y 0).val; omega
    | ⟨1, _⟩ => show win0_1.index t (1 : Fin 2) * 64 + 1 * a.val = a.val; omega
  · show V c main_v14 (((cfg0.win 2).blk t).view.emb (ix2 (y 0) a)) = _
    refine congrArg (V c main_v14) (funext fun d => Fin.ext ?_)
    match d with
    | ⟨0, _⟩ => show win0_2.index t (0 : Fin 2) * 8000 + 1 * (y 0).val = win0_9.index t (0 : Fin 2) * 8000 + 1 * (y 0).val; omega
    | ⟨1, _⟩ => show win0_2.index t (1 : Fin 2) * 64 + 1 * a.val = a.val; omega

/-- The weight and bias operands' blocks are the whole arrays, at every point. -/
theorem whole0 (c : Dev nD) (t : Fin cfg0.N) :
    (iblk0 V c 3 t : S64x128.Idx → EReal) = V c main_v15 ∧ (iblk0 V c 4 t : S64x128.Idx → EReal) = V c main_v16
    ∧ (iblk0 V c 5 t : S64x128.Idx → EReal) = V c main_v17 ∧ (iblk0 V c 6 t : S128.Idx → EReal) = V c main_arg3
    ∧ (iblk0 V c 7 t : S128x64.Idx → EReal) = V c main_arg4 ∧ (iblk0 V c 8 t : S64.Idx → EReal) = V c main_arg5 := by
  obtain ⟨-, -, -, -, -, -, -, -, e30, e31, e40, e41, e50, e51, e60, e70, e71, e80⟩ := idx0 t
  refine ⟨funext fun x => ?_, funext fun x => ?_, funext fun x => ?_, funext fun x => ?_, funext fun x => ?_, funext fun x => ?_⟩
  · show V c main_v15 (((cfg0.win 3).blk t).view.emb x) = V c main_v15 x
    refine congrArg (V c main_v15) (funext fun d => Fin.ext ?_)
    match d with
    | ⟨0, _⟩ => show win0_3.index t (0 : Fin 2) * 64 + 1 * (x 0).val = (x 0).val; omega
    | ⟨1, _⟩ => show win0_3.index t (1 : Fin 2) * 128 + 1 * (x 1).val = (x 1).val; omega
  · show V c main_v16 (((cfg0.win 4).blk t).view.emb x) = V c main_v16 x
    refine congrArg (V c main_v16) (funext fun d => Fin.ext ?_)
    match d with
    | ⟨0, _⟩ => show win0_4.index t (0 : Fin 2) * 64 + 1 * (x 0).val = (x 0).val; omega
    | ⟨1, _⟩ => show win0_4.index t (1 : Fin 2) * 128 + 1 * (x 1).val = (x 1).val; omega
  · show V c main_v17 (((cfg0.win 5).blk t).view.emb x) = V c main_v17 x
    refine congrArg (V c main_v17) (funext fun d => Fin.ext ?_)
    match d with
    | ⟨0, _⟩ => show win0_5.index t (0 : Fin 2) * 64 + 1 * (x 0).val = (x 0).val; omega
    | ⟨1, _⟩ => show win0_5.index t (1 : Fin 2) * 128 + 1 * (x 1).val = (x 1).val; omega
  · show V c main_arg3 (((cfg0.win 6).blk t).view.emb x) = V c main_arg3 x
    refine congrArg (V c main_arg3) (funext fun d => Fin.ext ?_)
    match d with
    | ⟨0, _⟩ => show win0_6.index t (0 : Fin 1) * 128 + 1 * (x 0).val = (x 0).val; omega
  · show V c main_arg4 (((cfg0.win 7).blk t).view.emb x) = V c main_arg4 x
    refine congrArg (V c main_arg4) (funext fun d => Fin.ext ?_)
    match d with
    | ⟨0, _⟩ => show win0_7.index t (0 : Fin 2) * 128 + 1 * (x 0).val = (x 0).val; omega
    | ⟨1, _⟩ => show win0_7.index t (1 : Fin 2) * 64 + 1 * (x 1).val = (x 1).val; omega
  · show V c main_arg5 (((cfg0.win 8).blk t).view.emb x) = V c main_arg5 x
    refine congrArg (V c main_arg5) (funext fun d => Fin.ext ?_)
    match d with
    | ⟨0, _⟩ => show win0_8.index t (0 : Fin 1) * 64 + 1 * (x 0).val = (x 0).val; omega

/-- The edge stage on the nine operand arrays as the region finds them. -/
abbrev edgeArray (c : Dev nD) : S800000x64.Idx → EReal :=
  edgeOut (R := 800000) (V c main_arg1) (V c main_v7) (V c main_v14) (V c main_v15) (V c main_v16) (V c main_v17)
    (V c main_arg3) (V c main_arg4) (V c main_arg5)

/-- What point `t` writes back is block `t` of the stage on the whole arrays. -/
theorem edge_flushed (c : Dev nD) (t : Fin cfg0.N) :
    (dat0 V c).flushed 9 t = ((cfg0.win 9).blk t).view.read (Elt Ideal) (edgeArray V c) := by
  show (cfg0.win 9).cut (grid0.coords t) ((dat0 V c).after 9 t) = _
  rw [after0_9]
  unfold out0_9
  rw [View.canon_unit_zero hz2]
  simp only [View.ld_unit_zero (S := S8000x64) hz2, View.ld_unit_zero (S := S64x128) hz2, View.ld_unit_zero (S := S128x64) hz2,
    View.ld_unit_zero (S := S128) hz1, View.ld_unit_zero (S := S64) hz1]
  rw [Body.edge_body]
  obtain ⟨w3, w4, w5, w6, w7, w8⟩ := whole0 V c t
  obtain ⟨-, -, -, -, -, -, e90, e91, -⟩ := idx0 t
  funext j
  show edgeOut (R := 8000) (iblk0 V c 0 t) (iblk0 V c 1 t) (iblk0 V c 2 t) (iblk0 V c 3 t) (iblk0 V c 4 t) (iblk0 V c 5 t)
      (iblk0 V c 6 t) (iblk0 V c 7 t) (iblk0 V c 8 t) j
    = edgeOut (R := 800000) (V c main_arg1) (V c main_v7) (V c main_v14) (V c main_v15) (V c main_v16) (V c main_v17)
      (V c main_arg3) (V c main_arg4) (V c main_arg5) (((cfg0.win 9).blk t).view.emb j)
  rw [w3, w4, w5, w6, w7, w8]
  refine edgeOut_rows _ _ _ _ _ _ _ _ _ _ _ _ j (((cfg0.win 9).blk t).view.emb j) (Fin.ext ?_)
    (fun a => (rows0 V c t j a).1) (fun a => (rows0 V c t j a).2.1) (fun a => (rows0 V c t j a).2.2)
  show win0_9.index t (1 : Fin 2) * 64 + 1 * (j 1).val = (j 1).val
  omega

/-- An index of the array is in point `t`'s output block iff each coordinate is in the block's range on its axis. -/
theorem edge_mem_blk (t : Fin cfg0.N) (i : S800000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v18).slice (win0_9.rect t)).set ↔ _
  rw [View.set_slice_whole, Rect.mem_set_unit]
  exact Iff.rfl

/-- The output array after the region: the edge stage on the operand arrays. -/
theorem edge_final (c : Dev nD) : (dat0 V c).arrAt 9 cfg0.N = edgeArray V c :=
  (dat0 V c).arrAt_eq_of_cover 9 (edgeArray V c) (fun t _ => edge_flushed V c t) fun i => by
    have hi0 : (i 0).val < 800000 := (i 0).isLt
    have hi1 : (i 1).val < 64 := (i 1).isLt
    have hN : cfg0.N = 100 := N_0
    refine ⟨⟨(i 0).val / 8000, by rw [hN]; omega⟩, flush0_9 _, ?_⟩
    rw [edge_mem_blk]
    obtain ⟨-, -, -, -, -, -, e90, e91, -⟩ := idx0 ⟨(i 0).val / 8000, by rw [hN]; omega⟩
    intro a
    match a with
    | ⟨0, _⟩ =>
      show win0_9.index _ (0 : Fin 2) * 8000 ≤ (i 0).val ∧ (i 0).val < win0_9.index _ (0 : Fin 2) * 8000 + 8000
      rw [e90]; show (i 0).val / 8000 * 8000 ≤ (i 0).val ∧ (i 0).val < (i 0).val / 8000 * 8000 + 8000; omega
    | ⟨1, _⟩ =>
      show win0_9.index _ (1 : Fin 2) * 64 ≤ (i 1).val ∧ (i 1).val < win0_9.index _ (1 : Fin 2) * 64 + 64
      rw [e91]; omega

end Cert.KernelIdeal.Blocks

end
-- ==== Proof.NodeBlocks.lean ====
/-
  The node kernel's output array after its pipeline has run, for ANY contents `V` of the buffers when the region is
  entered: it is the node stage of `Spec` applied to the seven operand arrays as the region finds them.

  The grid has 10 points. At point `t` the two row-indexed operands and the output are cut into blocks of 5000 rows and
  the point sees block `t`; the five weight and bias operands are seen whole at every point. An entry of the stage depends
  on its own row of the row-indexed operands only, so the stage on block `t` is block `t` of the stage on the whole
  arrays; the 10 output blocks tile the 50000 rows (row `r` lies in block `r / 5000`).
-/
import proofs.«142563_j40140764348810_2_alg».proof.Proof.Gen.KernelIdeal.Frame
import proofs.«142563_j40140764348810_2_alg».proof.Proof.Payload
import Idealize.ShloMosaic.Lib.Pipeline.Value

set_option maxRecDepth 16384

noncomputable section

namespace Cert.KernelIdeal.NodeBlocks

open Cert.KernelIdeal Cert.KernelIdeal.Gen Idealize.ShloMosaic Idealize.ShloMosaic.TcCoe Idealize.SL.Sem
open Idealize.ShloMosaic.ValueIdx Cert.GraphNet
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The stage at a row `y 0` of blocks equals the stage at a row `i 0` of arrays whenever the two rows hold the same
    entries in each row-indexed operand and the columns agree. -/
theorem nodeOut_rows {R R' : Nat} (b0 b1 : Arr ⟨2, ![R, 64]⟩) (A0 A1 : Arr ⟨2, ![R', 64]⟩)
    (Wa Wn : Arr ⟨2, ![64, 128]⟩) (c1 : Arr ⟨1, ![128]⟩) (W2 : Arr ⟨2, ![128, 64]⟩) (c2 : Arr ⟨1, ![64]⟩)
    (y : (⟨2, ![R, 64]⟩ : Shape).Idx) (i : (⟨2, ![R', 64]⟩ : Shape).Idx) (hq : i 1 = y 1)
    (h0 : ∀ a : Fin 64, b0 (ix2 (y 0) a) = A0 (ix2 (i 0) a)) (h1 : ∀ a : Fin 64, b1 (ix2 (y 0) a) = A1 (ix2 (i 0) a)) :
    nodeOut b0 b1 Wa Wn c1 W2 c2 y = nodeOut A0 A1 Wa Wn c1 W2 c2 i := by
  unfold nodeOut
  rw [hq]
  exact nodeEntry_congr b0 b1 A0 A1 Wa Wn c1 W2 c2 (y 0) (i 0) (y 1) h0 h1

/-- The printed index maps over the 10 grid points: the row-indexed windows and the output sit at block row `t`,
    column block 0; the weight and bias windows at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- A row-indexed operand's block at point `t`, at `(y 0, a)`, is the array at the same place of the output's block. -/
theorem rows1 (c : Dev nD) (t : Fin cfg1.N) (y : S5000x64.Idx) (a : Fin 64) :
    iblk1 V c 0 t (ix2 (y 0) a) = V c main_v21 (ix2 ((((cfg1.win 7).blk t).view.emb y) 0) a)
    ∧ iblk1 V c 1 t (ix2 (y 0) a) = V c main_arg0 (ix2 ((((cfg1.win 7).blk t).view.emb y) 0) a) := by
  obtain ⟨e00, e01, e10, e11, e70, e71, -⟩ := idx1 t
  have hy : (y 0).val < 5000 := (y 0).isLt
  have ha : a.val < 64 := a.isLt
  refine ⟨?_, ?_⟩
  · show V c main_v21 (((cfg1.win 0).blk t).view.emb (ix2 (y 0) a)) = _
    refine congrArg (V c main_v21) (funext fun d => Fin.ext ?_)
    match d with
    | ⟨0, _⟩ => show win1_0.index t (0 : Fin 2) * 5000 + 1 * (y 0).val = win1_7.index t (0 : Fin 2) * 5000 + 1 * (y 0).val; omega
    | ⟨1, _⟩ => show win1_0.index t (1 : Fin 2) * 64 + 1 * a.val = a.val; omega
  · show V c main_arg0 (((cfg1.win 1).blk t).view.emb (ix2 (y 0) a)) = _
    refine congrArg (V c main_arg0) (funext fun d => Fin.ext ?_)
    match d with
    | ⟨0, _⟩ => show win1_1.index t (0 : Fin 2) * 5000 + 1 * (y 0).val = win1_7.index t (0 : Fin 2) * 5000 + 1 * (y 0).val; omega
    | ⟨1, _⟩ => show win1_1.index t (1 : Fin 2) * 64 + 1 * a.val = a.val; omega

/-- The weight and bias operands' blocks are the whole arrays, at every point. -/
theorem whole1 (c : Dev nD) (t : Fin cfg1.N) :
    (iblk1 V c 2 t : S64x128.Idx → EReal) = V c main_v22 ∧ (iblk1 V c 3 t : S64x128.Idx → EReal) = V c main_v23
    ∧ (iblk1 V c 4 t : S128.Idx → EReal) = V c main_arg7
    ∧ (iblk1 V c 5 t : S128x64.Idx → EReal) = V c main_arg8 ∧ (iblk1 V c 6 t : S64.Idx → EReal) = V c main_arg9 := by
  obtain ⟨-, -, -, -, -, -, e20, e21, e30, e31, e40, e50, e51, e60⟩ := idx1 t
  refine ⟨funext fun x => ?_, funext fun x => ?_, funext fun x => ?_, funext fun x => ?_, funext fun x => ?_⟩
  · show V c main_v22 (((cfg1.win 2).blk t).view.emb x) = V c main_v22 x
    refine congrArg (V c main_v22) (funext fun d => Fin.ext ?_)
    match d with
    | ⟨0, _⟩ => show win1_2.index t (0 : Fin 2) * 64 + 1 * (x 0).val = (x 0).val; omega
    | ⟨1, _⟩ => show win1_2.index t (1 : Fin 2) * 128 + 1 * (x 1).val = (x 1).val; omega
  · show V c main_v23 (((cfg1.win 3).blk t).view.emb x) = V c main_v23 x
    refine congrArg (V c main_v23) (funext fun d => Fin.ext ?_)
    match d with
    | ⟨0, _⟩ => show win1_3.index t (0 : Fin 2) * 64 + 1 * (x 0).val = (x 0).val; omega
    | ⟨1, _⟩ => show win1_3.index t (1 : Fin 2) * 128 + 1 * (x 1).val = (x 1).val; omega
  · show V c main_arg7 (((cfg1.win 4).blk t).view.emb x) = V c main_arg7 x
    refine congrArg (V c main_arg7) (funext fun d => Fin.ext ?_)
    match d with
    | ⟨0, _⟩ => show win1_4.index t (0 : Fin 1) * 128 + 1 * (x 0).val = (x 0).val; omega
  · show V c main_arg8 (((cfg1.win 5).blk t).view.emb x) = V c main_arg8 x
    refine congrArg (V c main_arg8) (funext fun d => Fin.ext ?_)
    match d with
    | ⟨0, _⟩ => show win1_5.index t (0 : Fin 2) * 128 + 1 * (x 0).val = (x 0).val; omega
    | ⟨1, _⟩ => show win1_5.index t (1 : Fin 2) * 64 + 1 * (x 1).val = (x 1).val; omega
  · show V c main_arg9 (((cfg1.win 6).blk t).view.emb x) = V c main_arg9 x
    refine congrArg (V c main_arg9) (funext fun d => Fin.ext ?_)
    match d with
    | ⟨0, _⟩ => show win1_6.index t (0 : Fin 1) * 64 + 1 * (x 0).val = (x 0).val; omega

/-- The node stage on the seven operand arrays as the region finds them. -/
abbrev nodeArray (c : Dev nD) : S50000x64.Idx → EReal :=
  nodeOut (R := 50000) (V c main_v21) (V c main_arg0) (V c main_v22) (V c main_v23) (V c main_arg7) (V c main_arg8)
    (V c main_arg9)

/-- What point `t` writes back is block `t` of the stage on the whole arrays. -/
theorem node_flushed (c : Dev nD) (t : Fin cfg1.N) :
    (dat1 V c).flushed 7 t = ((cfg1.win 7).blk t).view.read (Elt Ideal) (nodeArray V c) := by
  show (cfg1.win 7).cut (grid1.coords t) ((dat1 V c).after 7 t) = _
  rw [after1_7]
  unfold out1_7
  rw [View.canon_unit_zero hz2]
  simp only [View.ld_unit_zero (S := S5000x64) hz2, View.ld_unit_zero (S := S64x128) hz2, View.ld_unit_zero (S := S128x64) hz2,
    View.ld_unit_zero (S := S128) hz1, View.ld_unit_zero (S := S64) hz1]
  rw [Body.node_body]
  obtain ⟨w2, w3, w4, w5, w6⟩ := whole1 V c t
  obtain ⟨-, -, -, -, e70, e71, -⟩ := idx1 t
  funext j
  show nodeOut (R := 5000) (iblk1 V c 0 t) (iblk1 V c 1 t) (iblk1 V c 2 t) (iblk1 V c 3 t) (iblk1 V c 4 t) (iblk1 V c 5 t)
      (iblk1 V c 6 t) j
    = nodeOut (R := 50000) (V c main_v21) (V c main_arg0) (V c main_v22) (V c main_v23) (V c main_arg7) (V c main_arg8)
      (V c main_arg9) (((cfg1.win 7).blk t).view.emb j)
  rw [w2, w3, w4, w5, w6]
  refine nodeOut_rows _ _ _ _ _ _ _ _ _ j (((cfg1.win 7).blk t).view.emb j) (Fin.ext ?_)
    (fun a => (rows1 V c t j a).1) (fun a => (rows1 V c t j a).2)
  show win1_7.index t (1 : Fin 2) * 64 + 1 * (j 1).val = (j 1).val
  omega

/-- An index of the array is in point `t`'s output block iff each coordinate is in the block's range on its axis. -/
theorem node_mem_blk (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v24).slice (win1_7.rect t)).set ↔ _
  rw [View.set_slice_whole, Rect.mem_set_unit]
  exact Iff.rfl

/-- The output array after the region: the node stage on the operand arrays. -/
theorem node_final (c : Dev nD) : (dat1 V c).arrAt 7 cfg1.N = nodeArray V c :=
  (dat1 V c).arrAt_eq_of_cover 7 (nodeArray V c) (fun t _ => node_flushed V c t) fun i => by
    have hi0 : (i 0).val < 50000 := (i 0).isLt
    have hi1 : (i 1).val < 64 := (i 1).isLt
    have hN : cfg1.N = 10 := N_1
    refine ⟨⟨(i 0).val / 5000, by rw [hN]; omega⟩, flush1_7 _, ?_⟩
    rw [node_mem_blk]
    obtain ⟨-, -, -, -, e70, e71, -⟩ := idx1 ⟨(i 0).val / 5000, by rw [hN]; omega⟩
    intro a
    match a with
    | ⟨0, _⟩ =>
      show win1_7.index _ (0 : Fin 2) * 5000 ≤ (i 0).val ∧ (i 0).val < win1_7.index _ (0 : Fin 2) * 5000 + 5000
      rw [e70]; show (i 0).val / 5000 * 5000 ≤ (i 0).val ∧ (i 0).val < (i 0).val / 5000 * 5000 + 5000; omega
    | ⟨1, _⟩ =>
      show win1_7.index _ (1 : Fin 2) * 64 ≤ (i 1).val ∧ (i 1).val < win1_7.index _ (1 : Fin 2) * 64 + 64
      rw [e71]; omega

end Cert.KernelIdeal.NodeBlocks

end
-- ==== Proof.KernelFold.lean ====
/-
  The contents of the kernel program's buffers along its run, as functions of the launch memory `m`, at exact
  arithmetic.

  Before the edge region the host gathers, for every edge, the sender's and the receiver's row of the node features (the
  index first normalised: a negative index has the number of nodes added), and cuts the first weight matrix into its
  three row blocks of 64; the conversion of the node features to the narrower format in front of the gathers is the
  identity on the extended reals. The edge region leaves the edge stage of those arrays in the first result. Between the
  regions the host adds every edge's result row into its receiver's row of a zero array and cuts the node stage's first
  weight matrix into its two row blocks. The node region leaves the node stage of those arrays in the second result.
-/
import proofs.«142563_j40140764348810_2_alg».proof.Proof.EdgeBlocks
import proofs.«142563_j40140764348810_2_alg».proof.Proof.NodeBlocks
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Cert.GraphNet

/-- The rows of the node features picked by an index array, the index normalised first. -/
def pickedRows (x0 : S50000x64.Idx → EReal) (ix : IVec S800000 32) : S800000x64.Idx → EReal :=
  Host.gather gather_S50000x64_S800000x1_S800000x64_1_0_n_n_0_1_164 x0
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

/-- Every edge's row added into its receiver's row of the zero array. -/
def summedRows (ix : IVec S800000 32) (e : S800000x64.Idx → EReal) : S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 ix) e

variable (m : (ℓ : Loc nD τ sig) → Buf (Elt Ideal) ℓ) (ρ : Dev nD → PrngReg)

/-- The edge stage of the launch arrays. -/
def edgeValue (c : Dev nD) : S800000x64.Idx → EReal :=
  edgeOut (R := 800000) (m ((c.tc : Thread nD τ).loc main_arg1)) (pickedRows (m ((c.tc : Thread nD τ).loc main_arg0)) (m ((c.tc : Thread nD τ).loc main_arg10))) (pickedRows (m ((c.tc : Thread nD τ).loc main_arg0)) (m ((c.tc : Thread nD τ).loc main_arg11)))
    (extractStridedSlice S64x128 ![0, 0] (m ((c.tc : Thread nD τ).loc main_arg2)) slices_S192x128_S64x128_0_0)
    (extractStridedSlice S64x128 ![64, 0] (m ((c.tc : Thread nD τ).loc main_arg2)) slices_S192x128_S64x128_64_0)
    (extractStridedSlice S64x128 ![128, 0] (m ((c.tc : Thread nD τ).loc main_arg2)) slices_S192x128_S64x128_128_0)
    (m ((c.tc : Thread nD τ).loc main_arg3)) (m ((c.tc : Thread nD τ).loc main_arg4)) (m ((c.tc : Thread nD τ).loc main_arg5))

/-- The node stage of the summed edge results and the launch arrays. -/
def nodeValue (c : Dev nD) : S50000x64.Idx → EReal :=
  nodeOut (R := 50000) (summedRows (m ((c.tc : Thread nD τ).loc main_arg11)) (edgeValue m c)) (m ((c.tc : Thread nD τ).loc main_arg0))
    (extractStridedSlice S64x128 ![0, 0] (m ((c.tc : Thread nD τ).loc main_arg6)) slices_S128x128_S64x128_0_0)
    (extractStridedSlice S64x128 ![64, 0] (m ((c.tc : Thread nD τ).loc main_arg6)) slices_S128x128_S64x128_64_0)
    (m ((c.tc : Thread nD τ).loc main_arg7)) (m ((c.tc : Thread nD τ).loc main_arg8)) (m ((c.tc : Thread nD τ).loc main_arg9))

/-! ## When the edge region is entered -/

theorem V1_arg1 (c : Dev nD) : V1 m ρ c main_arg1 = (m ((c.tc : Thread nD τ).loc main_arg1)) := by
  show StableHlo.after hostOps0 (W0 m ρ c) (Proc.devRef .tc main_arg1) = _
  after_results_simp <;> rfl
theorem V1_arg3 (c : Dev nD) : V1 m ρ c main_arg3 = (m ((c.tc : Thread nD τ).loc main_arg3)) := by
  show StableHlo.after hostOps0 (W0 m ρ c) (Proc.devRef .tc main_arg3) = _
  after_results_simp <;> rfl
theorem V1_arg4 (c : Dev nD) : V1 m ρ c main_arg4 = (m ((c.tc : Thread nD τ).loc main_arg4)) := by
  show StableHlo.after hostOps0 (W0 m ρ c) (Proc.devRef .tc main_arg4) = _
  after_results_simp <;> rfl
theorem V1_arg5 (c : Dev nD) : V1 m ρ c main_arg5 = (m ((c.tc : Thread nD τ).loc main_arg5)) := by
  show StableHlo.after hostOps0 (W0 m ρ c) (Proc.devRef .tc main_arg5) = _
  after_results_simp <;> rfl
theorem V1_v7 (c : Dev nD) : (V1 m ρ c main_v7 : S800000x64.Idx → EReal) = pickedRows (m ((c.tc : Thread nD τ).loc main_arg0)) (m ((c.tc : Thread nD τ).loc main_arg10)) := by
  show StableHlo.after hostOps0 (W0 m ρ c) (Proc.devRef .tc main_v7) = _
  after_results_simp <;> rfl
theorem V1_v14 (c : Dev nD) : (V1 m ρ c main_v14 : S800000x64.Idx → EReal) = pickedRows (m ((c.tc : Thread nD τ).loc main_arg0)) (m ((c.tc : Thread nD τ).loc main_arg11)) := by
  show StableHlo.after hostOps0 (W0 m ρ c) (Proc.devRef .tc main_v14) = _
  after_results_simp <;> rfl
theorem V1_v15 (c : Dev nD) : (V1 m ρ c main_v15 : S64x128.Idx → EReal)
    = extractStridedSlice S64x128 ![0, 0] (m ((c.tc : Thread nD τ).loc main_arg2)) slices_S192x128_S64x128_0_0 := by
  show StableHlo.after hostOps0 (W0 m ρ c) (Proc.devRef .tc main_v15) = _
  after_results_simp <;> rfl
theorem V1_v16 (c : Dev nD) : (V1 m ρ c main_v16 : S64x128.Idx → EReal)
    = extractStridedSlice S64x128 ![64, 0] (m ((c.tc : Thread nD τ).loc main_arg2)) slices_S192x128_S64x128_64_0 := by
  show StableHlo.after hostOps0 (W0 m ρ c) (Proc.devRef .tc main_v16) = _
  after_results_simp <;> rfl
theorem V1_v17 (c : Dev nD) : (V1 m ρ c main_v17 : S64x128.Idx → EReal)
    = extractStridedSlice S64x128 ![128, 0] (m ((c.tc : Thread nD τ).loc main_arg2)) slices_S192x128_S64x128_128_0 := by
  show StableHlo.after hostOps0 (W0 m ρ c) (Proc.devRef .tc main_v17) = _
  after_results_simp <;> rfl

/-- The first result buffer when the edge region is left. -/
theorem W2_v18 (c : Dev nD) : (W2 m ρ c (Proc.devRef .tc main_v18) : S800000x64.Idx → EReal) = edgeValue m c := by
  refine (W2_arr m ρ c 9).trans ((Blocks.edge_final (V1 m ρ) c).trans ?_)
  unfold Blocks.edgeArray edgeValue
  rw [V1_arg1, V1_arg3, V1_arg4, V1_arg5, V1_v7, V1_v14, V1_v15, V1_v16, V1_v17]

/-- An argument that no window of the edge region is on keeps, when the region is left, its launch contents. -/
theorem W2_arg0 (c : Dev nD) : W2 m ρ c (Proc.devRef .tc main_arg0) = (m ((c.tc : Thread nD τ).loc main_arg0)) := by
  refine (W2_of_ne m ρ c main_arg0 (by decide)).trans ?_
  show StableHlo.after hostOps0 (W0 m ρ c) (Proc.devRef .tc main_arg0) = _
  after_results_simp <;> rfl
theorem W2_arg6 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results_simp <;> rfl
theorem W2_arg7 (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results_simp <;> rfl
theorem W2_arg8 (c : Dev nD) : W2 m ρ c (Proc.devRef .tc main_arg8) = (m ((c.tc : Thread nD τ).loc main_arg8)) := by
  refine (W2_of_ne m ρ c main_arg8 (by decide)).trans ?_
  show StableHlo.after hostOps0 (W0 m ρ c) (Proc.devRef .tc main_arg8) = _
  after_results_simp <;> rfl
theorem W2_arg9 (c : Dev nD) : W2 m ρ c (Proc.devRef .tc main_arg9) = (m ((c.tc : Thread nD τ).loc main_arg9)) := by
  refine (W2_of_ne m ρ c main_arg9 (by decide)).trans ?_
  show StableHlo.after hostOps0 (W0 m ρ c) (Proc.devRef .tc main_arg9) = _
  after_results_simp <;> rfl
theorem W2_arg11 (c : Dev nD) : W2 m ρ c (Proc.devRef .tc main_arg11) = (m ((c.tc : Thread nD τ).loc main_arg11)) := by
  refine (W2_of_ne m ρ c main_arg11 (by decide)).trans ?_
  show StableHlo.after hostOps0 (W0 m ρ c) (Proc.devRef .tc main_arg11) = _
  after_results_simp <;> rfl

/-! ## When the node region is entered -/

theorem V3_arg0 (c : Dev nD) : V3 m ρ c main_arg0 = (m ((c.tc : Thread nD τ).loc main_arg0)) := by
  show StableHlo.after hostOps1 (W2 m ρ c) (Proc.devRef .tc main_arg0) = _
  after_results_simp <;> first | exact W2_arg0 m ρ c | rfl
theorem V3_arg7 (c : Dev nD) : V3 m ρ c main_arg7 = (m ((c.tc : Thread nD τ).loc main_arg7)) := by
  show StableHlo.after hostOps1 (W2 m ρ c) (Proc.devRef .tc main_arg7) = _
  after_results_simp <;> first | exact W2_arg7 m ρ c | rfl
theorem V3_arg8 (c : Dev nD) : V3 m ρ c main_arg8 = (m ((c.tc : Thread nD τ).loc main_arg8)) := by
  show StableHlo.after hostOps1 (W2 m ρ c) (Proc.devRef .tc main_arg8) = _
  after_results_simp <;> first | exact W2_arg8 m ρ c | rfl
theorem V3_arg9 (c : Dev nD) : V3 m ρ c main_arg9 = (m ((c.tc : Thread nD τ).loc main_arg9)) := by
  show StableHlo.after hostOps1 (W2 m ρ c) (Proc.devRef .tc main_arg9) = _
  after_results_simp <;> first | exact W2_arg9 m ρ c | rfl
theorem V3_v21 (c : Dev nD) : (V3 m ρ c main_v21 : S50000x64.Idx → EReal) = summedRows (m ((c.tc : Thread nD τ).loc main_arg11)) (edgeValue m c) := by
  show StableHlo.after hostOps1 (W2 m ρ c) (Proc.devRef .tc main_v21) = _
  after_results_simp
  rw [W2_arg11, W2_v18]
  rfl
theorem V3_v22 (c : Dev nD) : (V3 m ρ c main_v22 : S64x128.Idx → EReal)
    = extractStridedSlice S64x128 ![0, 0] (m ((c.tc : Thread nD τ).loc main_arg6)) slices_S128x128_S64x128_0_0 := by
  show StableHlo.after hostOps1 (W2 m ρ c) (Proc.devRef .tc main_v22) = _
  after_results_simp
  rw [W2_arg6]
theorem V3_v23 (c : Dev nD) : (V3 m ρ c main_v23 : S64x128.Idx → EReal)
    = extractStridedSlice S64x128 ![64, 0] (m ((c.tc : Thread nD τ).loc main_arg6)) slices_S128x128_S64x128_64_0 := by
  show StableHlo.after hostOps1 (W2 m ρ c) (Proc.devRef .tc main_v23) = _
  after_results_simp
  rw [W2_arg6]

/-! ## At the return -/

/-- The first result: the edge stage of the launch arrays. -/
theorem W4_v18 (c : Dev nD) : (W4 m ρ c (Proc.devRef .tc main_v18) : S800000x64.Idx → EReal) = edgeValue m c := by
  refine (W4_of_ne m ρ c main_v18 (by decide)).trans ?_
  show StableHlo.after hostOps1 (W2 m ρ c) (Proc.devRef .tc main_v18) = _
  after_results_simp <;> first | exact W2_v18 m ρ c | rfl

/-- The second result: the node stage of the summed edge results and the launch arrays. -/
theorem W4_v24 (c : Dev nD) : (W4 m ρ c (Proc.devRef .tc main_v24) : S50000x64.Idx → EReal) = nodeValue m c := by
  refine (W4_arr m ρ c 7).trans ((NodeBlocks.node_final (V3 m ρ) c).trans ?_)
  unfold NodeBlocks.nodeArray nodeValue
  rw [V3_arg0, V3_arg7, V3_arg8, V3_arg9, V3_v21, V3_v22, V3_v23]

end Cert.KernelIdeal.Fold

end
-- ==== Proof.RefValue.lean ====
/-
  The reference's two dense stages, read entry by entry.

  `edge_eq`: the array the reference holds after its edge stage is `edgeOut` of the edge features, the two gathered
  node-feature arrays, the three blocks of 64 rows of the first edge weight matrix, and the other edge parameters.
  `node_eq`: the array it holds after its node stage is `nodeOut` of the scattered sums, the node features, the two
  blocks of 64 rows of the first node weight matrix, and the other node parameters.

  The reference forms each row's input by joining pieces of 64 columns side by side and contracts the joined row (192
  or 128 long) against the whole first weight matrix in one product-sum. `edgeOut` and `nodeOut` contract each piece
  against its own block of 64 rows and add the partial sums. The two spellings agree because a sum over 192 (or 128)
  consecutive indices is the sum of the sums over its consecutive blocks of 64. That is a law of commutative additive
  monoids, so it holds on the extended reals as it stands, infinite terms included. Inside block `b`, column
  `64 * b + a` of the joined row is column `a` of piece `b`, and row `64 * b + a` of the weight matrix is row `a` of
  its `b`-th block. The biases, the maximum with the value of the zero word and the second layer are the same
  expressions on both sides. The two gathered arrays and the scattered sums enter only as arrays read at an index.
-/
import proofs.«142563_j40140764348810_2_alg».proof.Proof.Gen.ReferenceIdeal.Read
import proofs.«142563_j40140764348810_2_alg».proof.Proof.Spec
import proofs.«142563_j40140764348810_2_alg».proof.Proof.LibPlainDot
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx Cert.GraphNet

/-! ## The joined rows, piece by piece -/

/-- Columns 0 to 63 of the joined edge row are the edge's own features. -/
theorem v14_piece0 (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (p : Fin 800000) (a : Fin 64) (c : Fin 192) (hc : c.val = a.val) :
    val_main_v14 (F := Ideal) x0 x1 x10 x11 (ix2 p c) = x1 (ix2 p a) := by
  unfold val_main_v14
  refine concatenate_apply_piece _ _ _ (ix2 p c) 0 ?_ S800000x64 (x1) ?_ ?_ 0 ?_ (ix2 p a) ?_ ?_
  · show (0 : Nat) < 3
    decide
  · rfl
  · rfl
  · rfl
  · intro b hb
    match b with
    | ⟨0, _⟩ => rfl
    | ⟨1, _⟩ => exact absurd rfl hb
  · exact (Nat.zero_add _).trans hc.symm

/-- Columns 64 to 127 of the joined edge row are the first gathered array's columns 0 to 63. -/
theorem v14_piece1 (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (p : Fin 800000) (a : Fin 64) (c : Fin 192) (hc : c.val = 64 + a.val) :
    val_main_v14 (F := Ideal) x0 x1 x10 x11 (ix2 p c) = val_main_v6 (F := Ideal) x0 x10 (ix2 p a) := by
  unfold val_main_v14
  refine concatenate_apply_piece _ _ _ (ix2 p c) 1 ?_ S800000x64 (val_main_v6 (F := Ideal) x0 x10) ?_ ?_ 64 ?_ (ix2 p a) ?_ ?_
  · show (1 : Nat) < 3
    decide
  · rfl
  · rfl
  · rfl
  · intro b hb
    match b with
    | ⟨0, _⟩ => rfl
    | ⟨1, _⟩ => exact absurd rfl hb
  · exact hc.symm

/-- Columns 128 to 191 of the joined edge row are the second gathered array's columns 0 to 63. -/
theorem v14_piece2 (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (p : Fin 800000) (a : Fin 64) (c : Fin 192) (hc : c.val = 128 + a.val) :
    val_main_v14 (F := Ideal) x0 x1 x10 x11 (ix2 p c) = val_main_v13 (F := Ideal) x0 x11 (ix2 p a) := by
  unfold val_main_v14
  refine concatenate_apply_piece _ _ _ (ix2 p c) 2 ?_ S800000x64 (val_main_v13 (F := Ideal) x0 x11) ?_ ?_ 128 ?_ (ix2 p a) ?_ ?_
  · show (2 : Nat) < 3
    decide
  · rfl
  · rfl
  · rfl
  · intro b hb
    match b with
    | ⟨0, _⟩ => rfl
    | ⟨1, _⟩ => exact absurd rfl hb
  · exact hc.symm

/-- The edge stage's hidden pre-activation at row `p`, unit `k`: the one product-sum over 192 columns, cut into its three
    blocks of 64, is the sum of the three per-piece product-sums; the bias is read at `k`. -/
theorem edge_hidden (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x10 x11 : (⟨S800000, .i32⟩ : BufTy).Contents (Elt Ideal))
    (h0 : S192x128.Slices ![0, 0] ⟨2, ![64, 128]⟩) (h1 : S192x128.Slices ![64, 0] ⟨2, ![64, 128]⟩)
    (h2 : S192x128.Slices ![128, 0] ⟨2, ![64, 128]⟩) (p : Fin 800000) (k : Fin 128) :
    val_main_v18 (F := Ideal) x0 x1 x2 x3 x10 x11 (ix2 p k)
      = edgeHidden (fun a => x1 (ix2 p a)) (fun a => val_main_v6 (F := Ideal) x0 x10 (ix2 p a))
          (fun a => val_main_v13 (F := Ideal) x0 x11 (ix2 p a))
          (extractStridedSlice ⟨2, ![64, 128]⟩ ![0, 0] x2 h0) (extractStridedSlice ⟨2, ![64, 128]⟩ ![64, 0] x2 h1)
          (extractStridedSlice ⟨2, ![64, 128]⟩ ![128, 0] x2 h2) x3 k := by
  have el : ∀ c : Fin 192, lidx_main_v15 (ix2 p k) c = ix2 p c := fun c => funext fun a => Fin.ext (by
    match a with
    | ⟨0, _⟩ => rfl
    | ⟨1, _⟩ => rfl)
  have er : ∀ c : Fin 192, ridx_main_v15 (ix2 p k) c = ix2 c k := fun c => funext fun a => Fin.ext (by
    match a with
    | ⟨0, _⟩ => rfl
    | ⟨1, _⟩ => rfl)
  have eb : idx_main_v16 (idx_main_v17 (ix2 p k)) = ix1 k := funext fun a => Fin.ext (by
    match a with
    | ⟨0, _⟩ => rfl)
  rw [val_main_v18_apply, val_main_v15_apply, val_main_v17_apply, val_main_v16_apply, eb]
  unfold edgeHidden
  refine congrArg (fun s : EReal => s + x3 (ix1 k)) ?_
  refine (Cert.LibPlainDot.sum_fin192 _).trans ?_
  refine congrArg₂ (fun s t : EReal => s + t) (congrArg₂ (fun s t : EReal => s + t) ?_ ?_) ?_
  · refine Finset.sum_congr rfl fun a _ => ?_
    refine congrArg₂ (fun s t : EReal => s * t) ?_ ?_
    · exact (congrArg _ (el _)).trans (v14_piece0 x0 x1 x10 x11 p a _ rfl)
    · exact (congrArg x2 (er _)).trans (slice2_axis0_apply 0 x2 h0 a k _ (Nat.zero_add _).symm).symm
  · refine Finset.sum_congr rfl fun a _ => ?_
    refine congrArg₂ (fun s t : EReal => s * t) ?_ ?_
    · exact (congrArg _ (el _)).trans (v14_piece1 x0 x1 x10 x11 p a _ rfl)
    · exact (congrArg x2 (er _)).trans (slice2_axis0_apply 64 x2 h1 a k _ rfl).symm
  · refine Finset.sum_congr rfl fun a _ => ?_
    refine congrArg₂ (fun s t : EReal => s * t) ?_ ?_
    · exact (congrArg _ (el _)).trans (v14_piece2 x0 x1 x10 x11 p a _ rfl)
    · exact (congrArg x2 (er _)).trans (slice2_axis0_apply 128 x2 h2 a k _ rfl).symm

/-- The edge stage's entry at `(p, q)` is the second layer applied to row `p` of the hidden pre-activations. -/
theorem edge_entry (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) (p : Fin 800000) (q : Fin 64) :
    val_main_v23 (F := Ideal) x0 x1 x2 x3 x4 x5 x10 x11 (ix2 p q)
      = outLayer (fun k => val_main_v18 (F := Ideal) x0 x1 x2 x3 x10 x11 (ix2 p k)) x4 x5 q := by
  have el : ∀ k : Fin 128, lidx_main_v20 (ix2 p q) k = ix2 p k := fun k => funext fun a => Fin.ext (by
    match a with
    | ⟨0, _⟩ => rfl
    | ⟨1, _⟩ => rfl)
  have er : ∀ k : Fin 128, ridx_main_v20 (ix2 p q) k = ix2 k q := fun k => funext fun a => Fin.ext (by
    match a with
    | ⟨0, _⟩ => rfl
    | ⟨1, _⟩ => rfl)
  have eb : idx_main_v21 (idx_main_v22 (ix2 p q)) = ix1 q := funext fun a => Fin.ext (by
    match a with
    | ⟨0, _⟩ => rfl)
  rw [val_main_v23_apply, val_main_v20_apply, val_main_v22_apply, val_main_v21_apply, eb]
  unfold outLayer
  refine congrArg (fun s : EReal => s + x5 (ix1 q)) ?_
  refine Finset.sum_congr rfl fun k _ => ?_
  refine congrArg₂ (fun s t : EReal => s * t) ?_ (congrArg x4 (er k))
  rw [el k, val_main_v19_apply, val_main_call0_v0_apply]
  rfl

/-! ## The node stage -/

/-- Columns 0 to 63 of the joined node row are the scattered sums. -/
theorem v27_piece0 (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) (p : Fin 50000) (a : Fin 64) (c : Fin 128) (hc : c.val = a.val) :
    val_main_v27 (F := Ideal) x0 x1 x2 x3 x4 x5 x10 x11 (ix2 p c) = val_main_v26 (F := Ideal) x0 x1 x2 x3 x4 x5 x10 x11 (ix2 p a) := by
  unfold val_main_v27
  refine concatenate_apply_piece _ _ _ (ix2 p c) 0 ?_ S50000x64 (val_main_v26 (F := Ideal) x0 x1 x2 x3 x4 x5 x10 x11) ?_ ?_ 0 ?_ (ix2 p a) ?_ ?_
  · show (0 : Nat) < 2
    decide
  · rfl
  · rfl
  · rfl
  · intro b hb
    match b with
    | ⟨0, _⟩ => rfl
    | ⟨1, _⟩ => exact absurd rfl hb
  · exact (Nat.zero_add _).trans hc.symm

/-- Columns 64 to 127 of the joined node row are the node's own features. -/
theorem v27_piece1 (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) (p : Fin 50000) (a : Fin 64) (c : Fin 128) (hc : c.val = 64 + a.val) :
    val_main_v27 (F := Ideal) x0 x1 x2 x3 x4 x5 x10 x11 (ix2 p c) = x0 (ix2 p a) := by
  unfold val_main_v27
  refine concatenate_apply_piece _ _ _ (ix2 p c) 1 ?_ S50000x64 (x0) ?_ ?_ 64 ?_ (ix2 p a) ?_ ?_
  · show (1 : Nat) < 2
    decide
  · rfl
  · rfl
  · rfl
  · intro b hb
    match b with
    | ⟨0, _⟩ => rfl
    | ⟨1, _⟩ => exact absurd rfl hb
  · exact hc.symm

/-- The node stage's hidden pre-activation at row `p`, unit `k`: the one product-sum over 128 columns, cut into its two
    blocks of 64, is the sum of the two per-piece product-sums; the bias is read at `k`. -/
theorem node_hidden (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x10 x11 : (⟨S800000, .i32⟩ : BufTy).Contents (Elt Ideal))
    (h0 : S128x128.Slices ![0, 0] ⟨2, ![64, 128]⟩) (h1 : S128x128.Slices ![64, 0] ⟨2, ![64, 128]⟩) (p : Fin 50000) (k : Fin 128) :
    val_main_v31 (F := Ideal) x0 x1 x2 x3 x4 x5 x6 x7 x10 x11 (ix2 p k)
      = nodeHidden (fun a => val_main_v26 (F := Ideal) x0 x1 x2 x3 x4 x5 x10 x11 (ix2 p a)) (fun a => x0 (ix2 p a))
          (extractStridedSlice ⟨2, ![64, 128]⟩ ![0, 0] x6 h0) (extractStridedSlice ⟨2, ![64, 128]⟩ ![64, 0] x6 h1) x7 k := by
  have el : ∀ c : Fin 128, lidx_main_v28 (ix2 p k) c = ix2 p c := fun c => funext fun a => Fin.ext (by
    match a with
    | ⟨0, _⟩ => rfl
    | ⟨1, _⟩ => rfl)
  have er : ∀ c : Fin 128, ridx_main_v28 (ix2 p k) c = ix2 c k := fun c => funext fun a => Fin.ext (by
    match a with
    | ⟨0, _⟩ => rfl
    | ⟨1, _⟩ => rfl)
  have eb : idx_main_v29 (idx_main_v30 (ix2 p k)) = ix1 k := funext fun a => Fin.ext (by
    match a with
    | ⟨0, _⟩ => rfl)
  rw [val_main_v31_apply, val_main_v28_apply, val_main_v30_apply, val_main_v29_apply, eb]
  unfold nodeHidden
  refine congrArg (fun s : EReal => s + x7 (ix1 k)) ?_
  refine (Cert.LibPlainDot.sum_fin128 _).trans ?_
  refine congrArg₂ (fun s t : EReal => s + t) ?_ ?_
  · refine Finset.sum_congr rfl fun a _ => ?_
    refine congrArg₂ (fun s t : EReal => s * t) ?_ ?_
    · exact (congrArg _ (el _)).trans (v27_piece0 x0 x1 x2 x3 x4 x5 x10 x11 p a _ rfl)
    · exact (congrArg x6 (er _)).trans (slice2_axis0_apply 0 x6 h0 a k _ (Nat.zero_add _).symm).symm
  · refine Finset.sum_congr rfl fun a _ => ?_
    refine congrArg₂ (fun s t : EReal => s * t) ?_ ?_
    · exact (congrArg _ (el _)).trans (v27_piece1 x0 x1 x2 x3 x4 x5 x10 x11 p a _ rfl)
    · exact (congrArg x6 (er _)).trans (slice2_axis0_apply 64 x6 h1 a k _ rfl).symm

/-- The node stage's entry at `(p, q)` is the second layer applied to row `p` of the hidden pre-activations. -/
theorem node_entry (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 x11 : (⟨S800000, .i32⟩ : BufTy).Contents (Elt Ideal)) (p : Fin 50000) (q : Fin 64) :
    val_main_v36 (F := Ideal) x0 x1 x2 x3 x4 x5 x6 x7 x8 x9 x10 x11 (ix2 p q)
      = outLayer (fun k => val_main_v31 (F := Ideal) x0 x1 x2 x3 x4 x5 x6 x7 x10 x11 (ix2 p k)) x8 x9 q := by
  have el : ∀ k : Fin 128, lidx_main_v33 (ix2 p q) k = ix2 p k := fun k => funext fun a => Fin.ext (by
    match a with
    | ⟨0, _⟩ => rfl
    | ⟨1, _⟩ => rfl)
  have er : ∀ k : Fin 128, ridx_main_v33 (ix2 p q) k = ix2 k q := fun k => funext fun a => Fin.ext (by
    match a with
    | ⟨0, _⟩ => rfl
    | ⟨1, _⟩ => rfl)
  have eb : idx_main_v34 (idx_main_v35 (ix2 p q)) = ix1 q := funext fun a => Fin.ext (by
    match a with
    | ⟨0, _⟩ => rfl)
  rw [val_main_v36_apply, val_main_v33_apply, val_main_v35_apply, val_main_v34_apply, eb]
  unfold outLayer
  refine congrArg (fun s : EReal => s + x9 (ix1 q)) ?_
  refine Finset.sum_congr rfl fun k _ => ?_
  refine congrArg₂ (fun s t : EReal => s * t) ?_ (congrArg x8 (er k))
  rw [el k, val_main_v32_apply, val_main_call1_v0_apply]
  rfl

/-! ## The two stages as whole arrays -/

theorem edge_eq (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal))
    (h0 : S192x128.Slices ![0, 0] ⟨2, ![64, 128]⟩) (h1 : S192x128.Slices ![64, 0] ⟨2, ![64, 128]⟩)
    (h2 : S192x128.Slices ![128, 0] ⟨2, ![64, 128]⟩) :
    val_main_v23 (F := Ideal) x0 x1 x2 x3 x4 x5 x10 x11
      = edgeOut (R := 800000) x1 (val_main_v6 (F := Ideal) x0 x10) (val_main_v13 (F := Ideal) x0 x11)
          (extractStridedSlice ⟨2, ![64, 128]⟩ ![0, 0] x2 h0) (extractStridedSlice ⟨2, ![64, 128]⟩ ![64, 0] x2 h1)
          (extractStridedSlice ⟨2, ![64, 128]⟩ ![128, 0] x2 h2) x3 x4 x5 := by
  funext j
  obtain ⟨p, q, rfl⟩ : ∃ (p : Fin 800000) (q : Fin 64), j = ix2 p q := ⟨j 0, j 1, eq_ix2 j⟩
  exact (edge_entry x0 x1 x2 x3 x4 x5 x10 x11 p q).trans
    (congrArg (fun h => outLayer h x4 x5 q) (funext fun k => edge_hidden x0 x1 x2 x3 x10 x11 h0 h1 h2 p k))

theorem node_eq (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 x11 : (⟨S800000, .i32⟩ : BufTy).Contents (Elt Ideal))
    (h0 : S128x128.Slices ![0, 0] ⟨2, ![64, 128]⟩) (h1 : S128x128.Slices ![64, 0] ⟨2, ![64, 128]⟩) :
    val_main_v36 (F := Ideal) x0 x1 x2 x3 x4 x5 x6 x7 x8 x9 x10 x11
      = nodeOut (R := 50000) (val_main_v26 (F := Ideal) x0 x1 x2 x3 x4 x5 x10 x11) x0
          (extractStridedSlice ⟨2, ![64, 128]⟩ ![0, 0] x6 h0) (extractStridedSlice ⟨2, ![64, 128]⟩ ![64, 0] x6 h1) x7 x8 x9 := by
  funext j
  obtain ⟨p, q, rfl⟩ : ∃ (p : Fin 50000) (q : Fin 64), j = ix2 p q := ⟨j 0, j 1, eq_ix2 j⟩
  exact (node_entry x0 x1 x2 x3 x4 x5 x6 x7 x8 x9 x10 x11 p q).trans
    (congrArg (fun h => outLayer h x8 x9 q) (funext fun k => node_hidden x0 x1 x2 x3 x4 x5 x6 x7 x10 x11 h0 h1 p k))

end Cert.ReferenceIdeal.RefValue

end
-- ==== Proof.Claims.lean ====
/-
  The five claims.

  The three frames: the two kernel programs' are the generated frame certificates; the reference has no kernel, and its
  frame is its run with the results forgotten. The idealization rewrote no operation, so nothing is owed for it.

  The equivalence. At exact arithmetic the kernel program leaves in its first result the edge stage of the launch
  arrays and in its second the node stage of the receiver-wise sums of the first result (module `KernelFold`, over the
  run of module `KernelRun`). The reference leaves the same two functions of its own launch arrays (module
  `RefValue`): it contracts each joined input row against the whole first weight matrix where the kernels contract it
  piece by piece against the matrix's row blocks, and a finite sum over consecutive blocks of indices is the sum of the
  block sums in any commutative additive monoid — so on the extended reals too, with no appeal to the inputs being
  finite. The gathers of node rows and the receiver-wise sum are the same host operations on the same operands in both
  programs and are never opened; the conversion to the narrower float format in front of the kernel's gathers is the
  identity at exact arithmetic. The launch arrays agree by hypothesis.
-/
import proofs.«142563_j40140764348810_2_alg».proof.Defs
import proofs.«142563_j40140764348810_2_alg».proof.Proof.Gen.Kernel.Frame
import proofs.«142563_j40140764348810_2_alg».proof.Proof.Gen.KernelIdeal.Frame
import proofs.«142563_j40140764348810_2_alg».proof.Proof.Gen.ReferenceIdeal.Run
import proofs.«142563_j40140764348810_2_alg».proof.Proof.Gen.ReferenceIdeal.Read
import proofs.«142563_j40140764348810_2_alg».proof.Proof.Gen.Pre_finite_inputs
import proofs.«142563_j40140764348810_2_alg».proof.Proof.KernelRun
import proofs.«142563_j40140764348810_2_alg».proof.Proof.KernelFold
import proofs.«142563_j40140764348810_2_alg».proof.Proof.RefValue

set_option maxRecDepth 16384

noncomputable section

namespace Cert.Proof.GraphNetClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The reference's edge stage of the kernel's launch arrays is the kernel program's first result. -/
theorem ref_edge (m : (ℓ : Loc Cert.KernelIdeal.nD Cert.KernelIdeal.τ Cert.KernelIdeal.sig) → Buf (Elt Ideal) ℓ)
    (c : Dev Cert.KernelIdeal.nD) :
    Cert.ReferenceIdeal.Read.val_main_v23 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Fold.edgeValue m c :=
  (Cert.ReferenceIdeal.RefValue.edge_eq _ _ _ _ _ _ _ _ Cert.KernelIdeal.Gen.slices_S192x128_S64x128_0_0
    Cert.KernelIdeal.Gen.slices_S192x128_S64x128_64_0 Cert.KernelIdeal.Gen.slices_S192x128_S64x128_128_0).trans rfl

/-- The reference's node stage of the kernel's launch arrays is the kernel program's second result. -/
theorem ref_node (m : (ℓ : Loc Cert.KernelIdeal.nD Cert.KernelIdeal.τ Cert.KernelIdeal.sig) → Buf (Elt Ideal) ℓ)
    (c : Dev Cert.KernelIdeal.nD) :
    Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Fold.nodeValue m c := by
  refine (Cert.ReferenceIdeal.RefValue.node_eq _ _ _ _ _ _ _ _ _ _ _ _ Cert.KernelIdeal.Gen.slices_S128x128_S64x128_0_0
    Cert.KernelIdeal.Gen.slices_S128x128_S64x128_64_0).trans ?_
  unfold Cert.ReferenceIdeal.Read.val_main_v26
  rw [ref_edge m c]
  rfl

theorem algebraic : Cert.algebraic_KernelIdeal_ReferenceIdeal := by
  intro m ρ m' ρ' _ hagree
  refine ⟨fun c => Cert.KernelIdeal.Fold.edgeValue m c, fun c => Cert.KernelIdeal.Fold.nodeValue m c, ?_, ?_⟩
  · exact (θ_run Cert.KernelIdeal.defs _ _).mono
      (fun r h c => ⟨(h c).1.trans (Cert.KernelIdeal.Fold.W4_v18 m ρ c), (h c).2.1.trans (Cert.KernelIdeal.Fold.W4_v24 m ρ c), (h c).2.2⟩)
      (Cert.KernelIdeal.RunValue.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11⟩ := hagree c
      rw [a0, a1, a2, a3, a4, a5, a10, a11]
      exact (Cert.ReferenceIdeal.Read.val_main_v23_eq _ _ _ _ _ _ _ _).trans (ref_edge m c)
    · obtain ⟨a0, a1, a2, a3, a4, a5, a6, a7, a8, a9, a10, a11⟩ := hagree c
      rw [a0, a1, a2, a3, a4, a5, a6, a7, a8, a9, a10, a11]
      exact (Cert.ReferenceIdeal.Read.val_main_v36_eq _ _ _ _ _ _ _ _ _ _ _ _).trans (ref_node m c)

end Cert.Proof.GraphNetClaims

end
-- ==== Proof.lean ====
/-
  The certificate of the message-passing step: an edge perceptron on every edge's features joined with its sender's
  and receiver's node features, the receiver-wise sum of its results, and a node perceptron on those sums joined with the
  node's own features — two pipelined kernels among host gathers, slices and a scatter-add — against the plain
  array program. The mathematics is in the modules under `Proof/`: `Spec` (the two stages as functions on the extended
  reals), `LibPlainDot` (sums over consecutive index blocks; a plain matrix product read at an entry), `Payload` (each
  kernel body is its stage on one block of rows), `EdgeBlocks` and `NodeBlocks` (the blocks tile the arrays),
  `KernelRun` and `KernelFold` (the kernel program's run and what its buffers hold along it), `RefValue` (the
  reference's stages are the same functions) and `Claims` (the five claims). Here they are put behind the witnesses of
  the programs' stated facts.
-/
import proofs.«142563_j40140764348810_2_alg».proof.Defs
import proofs.«142563_j40140764348810_2_alg».proof.Proof.Gen.Kernel
import proofs.«142563_j40140764348810_2_alg».proof.Proof.Gen.Kernel.Skeleton
import proofs.«142563_j40140764348810_2_alg».proof.Proof.Gen.Kernel.Launch
import proofs.«142563_j40140764348810_2_alg».proof.Proof.Gen.Kernel.Points
import proofs.«142563_j40140764348810_2_alg».proof.Proof.Gen.Kernel.Frame
import proofs.«142563_j40140764348810_2_alg».proof.Proof.Gen.KernelIdeal
import proofs.«142563_j40140764348810_2_alg».proof.Proof.Gen.KernelIdeal.Skeleton
import proofs.«142563_j40140764348810_2_alg».proof.Proof.Gen.KernelIdeal.Launch
import proofs.«142563_j40140764348810_2_alg».proof.Proof.Gen.KernelIdeal.Points
import proofs.«142563_j40140764348810_2_alg».proof.Proof.Gen.KernelIdeal.Frame
import proofs.«142563_j40140764348810_2_alg».proof.Proof.Gen.ReferenceIdeal
import proofs.«142563_j40140764348810_2_alg».proof.Proof.Gen.ReferenceIdeal.Run
import proofs.«142563_j40140764348810_2_alg».proof.Proof.Gen.ReferenceIdeal.Read
import proofs.«142563_j40140764348810_2_alg».proof.Proof.Gen.Pre_finite_inputs
import proofs.«142563_j40140764348810_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GraphNetClaims.frame_k, GraphNetClaims.frame_ki, GraphNetClaims.frame_ri, GraphNetClaims.preserves,
    GraphNetClaims.algebraic⟩

end Cert.Proof

end
